-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S65536 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S65536 : Shape := ⟨1, ![65536]⟩
abbrev S1024 : Shape := ⟨1, ![1024]⟩
abbrev S1x1024 : Shape := ⟨2, ![1, 1024]⟩
abbrev S512x128 : Shape := ⟨2, ![512, 128]⟩
abbrev S2048x1024 : Shape := ⟨2, ![2048, 1024]⟩
abbrev S16x128 : Shape := ⟨2, ![16, 128]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 8
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S65536, .f32⟩
  | .hbm, ⟨2, _⟩ => ⟨S1024, .f32⟩
  | .hbm, ⟨3, _⟩ => ⟨S1x1024, .f32⟩
  | .hbm, ⟨4, _⟩ => ⟨S512x128, .f32⟩
  | .hbm, ⟨5, _⟩ => ⟨S65536x1024, .f32⟩
  | .hbm, ⟨6, _⟩ => ⟨S512x128, .f32⟩
  | .hbm, ⟨7, _⟩ => ⟨S65536, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S16x128, .f32⟩
  | .local _ .vmem, ⟨4, _⟩ => ⟨S16x128, .f32⟩
  | .local _ .vmem, ⟨5, _⟩ => ⟨S2048x1024, .f32⟩
  | .local _ .vmem, ⟨6, _⟩ => ⟨S2048x1024, .f32⟩
  | .local _ .vmem, ⟨7, _⟩ => ⟨S16x128, .f32⟩
  | .local _ .vmem, ⟨8, _⟩ => ⟨S16x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  shapeCasts_S65536_S512x128 : S65536.ShapeCasts S512x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  broadcasts_S1x1024_S2048x1024 : S1x1024.Broadcasts S2048x1024
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S512x128_S65536 : S512x128.ShapeCasts S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S512x128.size a
  hwx0_2 : ∀ i : grid0.Coords, EltTy.bits .f32 = 32 ∨ (Rect.block (s := S512x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S65536x1024.size a
  hwx0_3 : ∀ i : grid0.Coords, EltTy.bits .f32 = 32 ∨ (Rect.block (s := S65536x1024) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S512x128.size a
  hwx0_4 : ∀ i : grid0.Coords, EltTy.bits .f32 = 32 ∨ (Rect.block (s := S512x128) S16x128.size (cc0_transform_4 i) (hinb0_4 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2048x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S16x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S1024 : Shape := ⟨1, ![1024]⟩
abbrev S_ : Shape := ⟨0, ![]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S65536x1024, .f32⟩
  | .hbm, ⟨8, _⟩ => ⟨S65536x1024, .f32⟩
  | .hbm, ⟨9, _⟩ => ⟨S65536, .f32⟩
  | .hbm, ⟨10, _⟩ => ⟨S65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S1024_S_d0 : S1024.ReducesTo [0] S_
  h_S_ : 0 < S_.numel
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536 : S_.BroadcastsInDim S65536 (![] : Fin 0 → Fin S65536.rank)

variable [Facts₀]

class Facts : Prop extends Facts₀ where

variable [Facts]
-- ==== Proof.Spec.lean ====
/-
  What the two programs compute, as functions of the three argument arrays over the extended reals.
  For x : [65536, 1024], d : [65536] and s : [1024]:
    * `scaled x s`  — column j of x multiplied by exp (s j): entry (i, j) is x (i, j) · exp (s j);
    * `shifted d s` — every entry of d increased by the total of s: entry i is d i + Σ_k s k.
  (Multiplying x on the right by the diagonal matrix of the exp (s j) is the first; the logarithm of that
  matrix's determinant is Σ_k s k, which the second adds to a running log-determinant.)
-/
import Idealize.ShloMosaic.PureOps.Ideal
import Idealize.ShloMosaic.Lib.ValueIdx

noncomputable section

namespace Cert.ColumnScale

open Idealize.ShloMosaic Idealize.ShloMosaic.ValueIdx

/-- The column of a matrix index, as an index of the vector of scales. -/
abbrev col (i : (⟨2, ![65536, 1024]⟩ : Shape).Idx) : (⟨1, ![1024]⟩ : Shape).Idx :=
  ix1 (n := 1024) ⟨(i 1).val, (i 1).isLt⟩

/-- Entry (i, j) is x (i, j) · exp (s j). -/
def scaled (x : FVec Ideal ⟨2, ![65536, 1024]⟩ .f32) (s : FVec Ideal ⟨1, ![1024]⟩ .f32) :
    FVec Ideal ⟨2, ![65536, 1024]⟩ .f32 :=
  fun i => x i * Ideal.exp (s (col i))

/-- Entry i is d i + Σ_k s k. -/
def shifted (d : FVec Ideal ⟨1, ![65536]⟩ .f32) (s : FVec Ideal ⟨1, ![1024]⟩ .f32) :
    FVec Ideal ⟨1, ![65536]⟩ .f32 :=
  fun i => d i + ∑ k : (⟨1, ![1024]⟩ : Shape).Idx, s k

end Cert.ColumnScale

end
-- ==== Proof.RefValue.lean ====
/-
  The reference's two results are `scaled` and `shifted` of its arguments.
  Its first result multiplies x by exp s broadcast first to one row [1, 1024] and then down the 65536 rows:
  at (i, j) both broadcasts read exp (s j). Its second adds to d the broadcast of 0 + Σ_k s k.
-/
import proofs.«120602_j28329604284563_2_alg».proof.Proof.Gen.ReferenceIdeal.Read
import proofs.«120602_j28329604284563_2_alg».proof.Proof.Spec
import Idealize.ShloMosaic.PureOps.Ideal.Laws

noncomputable section

namespace Cert.ReferenceIdeal.Results

open Cert.ReferenceIdeal Idealize.ShloMosaic Idealize.ShloMosaic.ValueIdx Cert.ColumnScale

/-- Reading the two broadcasts back from (i, j) lands on column j of the vector of scales. -/
theorem col_eq (i : S65536x1024.Idx) : Read.idx_main_v2 (Read.idx_main_v3 i) = col i := by
  funext a; match a with | ⟨0, _⟩ => rfl

/-- The product result: entry (i, j) is x (i, j) · exp (s j). -/
theorem product_eq (x0 : FVec Ideal S65536x1024 .f32) (x2 : FVec Ideal S1024 .f32) :
    Read.val_main_v4 (F := Ideal) x0 x2 = scaled x0 x2 := by
  funext i
  rw [Read.val_main_v4_apply, Read.val_main_v3_apply, Read.val_main_v2_apply, Read.val_main_v1_apply, col_eq]
  simp only [Ideal.mulf_def, Ideal.hostUnary_exp_def]
  rfl

/-- The sum result: entry i is d i + (0 + Σ_k s k) = d i + Σ_k s k. -/
theorem sum_eq (x1 : FVec Ideal S65536 .f32) (x2 : FVec Ideal S1024 .f32) :
    Read.val_main_v6 (F := Ideal) x1 x2 = shifted x1 x2 := by
  funext i
  rw [Read.val_main_v6_apply, Read.val_main_v5_apply, Read.val_main_v0_apply, Read.val_main_cst_apply]
  simp only [Ideal.addf_def, Ideal.ofBits_def, Ideal.ofBits_zero_f32, zero_add]
  rfl

end Cert.ReferenceIdeal.Results

end
-- ==== Proof.LibReshapeSum.lean ====
/-
  Reshapes and sums. A reshape lists the same entries under new indices: the row-major position of an entry is
  kept, so the correspondence between old and new indices is a bijection. Hence the sum of all entries of a
  reshaped array is the sum of all entries of the array, in any commutative monoid (no finiteness is used), and
  a reshape commutes with adding one fixed value to every entry.
-/
import Idealize.ShloMosaic.Lib.Pipeline.Value

noncomputable section

namespace Cert.Lib

open Idealize.ShloMosaic

/-- The entries of a reshaped array are the entries of the array, each exactly once: summed over all indices they
    give the same total. -/
theorem sum_shapeCast {s t : Shape} {M : Type} [AddCommMonoid M] (x : s.Idx → M) (h : s.ShapeCasts t) :
    ∑ j : t.Idx, shapeCast t x h j = ∑ k : s.Idx, x k :=
  Equiv.sum_comp (Shape.reshapeEquiv h) x

/-- Adding one fixed value to every entry and then reshaping is reshaping and then adding it. -/
theorem shapeCast_add_const {s t : Shape} {M : Type} [Add M] (x : s.Idx → M) (c : M) (h : s.ShapeCasts t) :
    shapeCast t (fun j => x j + c) h = fun i => shapeCast t x h i + c := rfl

end Cert.Lib

end
-- ==== Proof.Payload.lean ====
/-
  What the kernel body stores, entry by entry, over the extended reals.
  From the one row s' : [1, 1024] of scales, a block x' : [2048, 1024] of the matrix and a block d' : [16, 128]
  of the running log-determinant, the body stores
    * x' (p, q) · exp (s' (0, q))  at (p, q): the row of exponentials is repeated down the 2048 rows;
    * d' j + Σ_k s' k              at j: the row is viewed as [1, 1, 1024] and summed over both trailing axes into
      a single entry, which is then added everywhere. Summing into a one-entry array is the sum over every index
      of the source, and the views in between are reshapes, which keep that sum.
-/
import proofs.«120602_j28329604284563_2_alg».proof.Proof.Gen.KernelIdeal.Skeleton
import proofs.«120602_j28329604284563_2_alg».proof.Proof.LibReshapeSum
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The stored product at (p, q) is the matrix block there times the exponential of the scale of column q. -/
theorem product_at (s' : Vec Ideal S1x1024 .f32) (x' : Vec Ideal S2048x1024 .f32) (p : Fin 2048) (q : Fin 1024) :
    k0_pay2 (F := Ideal) s' x' (ix2 p q) = x' (ix2 p q) * Ideal.exp (s' (ix2 (0 : Fin 1) q)) := by
  unfold k0_pay2 k0_pay1
  show x' (ix2 p q) * broadcastTo S2048x1024 (exp (F := Ideal) (φ := .f32) (shapeCast S1x1024 s' shapeCasts_S1x1024_S1x1024))
      broadcasts_S1x1024_S2048x1024 (ix2 p q) = _
  refine congrArg (x' (ix2 p q) * ·) ?_
  refine (broadcastTo_1b_ab_apply _ broadcasts_S1x1024_S2048x1024 p q).trans ?_
  show Ideal.exp (shapeCast S1x1024 s' shapeCasts_S1x1024_S1x1024 (ix2 (0 : Fin 1) q)) = _
  rw [shapeCast_self]

/-- The one entry the body adds everywhere is the total of the row of scales. -/
theorem total_eq (s' : Vec Ideal S1x1024 .f32) :
    extractAt ![0, 0, 0] (shapeCast S1x1x1 (multiReduction (F := Ideal) .add [1, 2] S1
        (shapeCast S1x1x1024 (shapeCast S1x1024 s' shapeCasts_S1x1024_S1x1024) shapeCasts_S1x1024_S1x1x1024)
        0x00000000#32 reduces_S1x1x1024_S1 (.inl rfl) rfl) shapeCasts_S1_S1x1x1) inpos_S1x1x1_p0_0_0
      = ∑ k : S1x1024.Idx, s' k := by
  show multiReduction (F := Ideal) .add [1, 2] S1
      (shapeCast S1x1x1024 (shapeCast S1x1024 s' shapeCasts_S1x1024_S1x1024) shapeCasts_S1x1024_S1x1x1024)
      0x00000000#32 reduces_S1x1x1024_S1 (.inl rfl) rfl _ = _
  refine (Ideal.multiReduction_add_total _ _ reduces_S1x1x1024_S1 (by decide) _ _ _).trans ?_
  exact (Cert.Lib.sum_shapeCast _ shapeCasts_S1x1024_S1x1x1024).trans
    (Cert.Lib.sum_shapeCast s' shapeCasts_S1x1024_S1x1024)

/-- The stored sum at j is the log-determinant block there plus the total of the row of scales. -/
theorem sum_at (s' : Vec Ideal S1x1024 .f32) (d' : Vec Ideal S16x128 .f32) (j : S16x128.Idx) :
    k0_pay3 (F := Ideal) s' d' j = d' j + ∑ k : S1x1024.Idx, s' k := by
  unfold k0_pay3 k0_pay1
  show shapeCast S16x128 d' shapeCasts_S16x128_S16x128 j + extractAt ![0, 0, 0] (shapeCast S1x1x1
      (multiReduction (F := Ideal) .add [1, 2] S1
        (shapeCast S1x1x1024 (shapeCast S1x1024 s' shapeCasts_S1x1024_S1x1024) shapeCasts_S1x1024_S1x1x1024)
        0x00000000#32 reduces_S1x1x1024_S1 (.inl rfl) rfl) shapeCasts_S1_S1x1x1) inpos_S1x1x1_p0_0_0 = _
  rw [total_eq, shapeCast_self]

end Cert.KernelIdeal.Body

end
-- ==== Proof.Arrays.lean ====
/-
  The two arrays the kernel's grid leaves behind, as whole-array functions of the arguments.
  Before the grid the scales s : [1024] are viewed as one row [1, 1024] and the log-determinant d : [65536] as a
  [512, 128] table (row-major reshapes). Grid point t (of 32) works on rows 2048·t … 2048·t + 2047 of the matrix
  and on rows 16·t … 16·t + 15 of the table — the same 2048 entries of d —, always with the whole row of scales.
  So what point t writes back is block t of one fixed function of the arguments:
    * of `scaled x s` for the matrix result, because the block of x it reads sits exactly under the block it
      writes and column q of the block is column q of the array;
    * of (table of d) + Σ_k s k for the table result, the total of the row of scales being the total of s.
  The 32 blocks tile each array (the block holding row r is block r / 2048, respectively r / 16), so each array
  ends as that function everywhere.
-/
import proofs.«120602_j28329604284563_2_alg».proof.Proof.Gen.KernelIdeal.Frame
import proofs.«120602_j28329604284563_2_alg».proof.Proof.Payload
import proofs.«120602_j28329604284563_2_alg».proof.Proof.Spec
import Idealize.ShloMosaic.Lib.Pipeline.Value
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.ValueIdx Cert.ColumnScale
open Idealize.ShloMosaic.Pipeline (Dat)

variable (m : (ℓ : Loc nD τ sig) → Buf (Elt Ideal) ℓ)

/-! ## The body's stored values against the whole arrays, over variables -/

/-- If a matrix block at j is the matrix at i, the row of scales is the vector of scales, and i lies in column
    (j 1), then the stored product at j is `scaled` at i. -/
theorem product_block (X : FVec Ideal S65536x1024 .f32) (s : FVec Ideal S1024 .f32)
    (x' : Vec Ideal S2048x1024 .f32) (s' : Vec Ideal S1x1024 .f32) (j : S2048x1024.Idx) (i : S65536x1024.Idx)
    (hx : x' j = X i) (hs : ∀ q : Fin 1024, s' (ix2 (0 : Fin 1) q) = s (ix1 q)) (hcol : (i 1).val = (j 1).val) :
    k0_pay2 (F := Ideal) s' x' j = scaled X s i := by
  obtain ⟨p, q, rfl⟩ : ∃ (p : Fin 2048) (q : Fin 1024), j = ix2 p q := ⟨j 0, j 1, eq_ix2 j⟩
  rw [Body.product_at, hx, hs q]
  have hc : col i = ix1 q := by
    funext a; match a with | ⟨0, _⟩ => exact Fin.ext hcol
  unfold scaled
  rw [hc]

/-- If a table block at j is the table T at i and the row of scales is the reshaped vector of scales, then the
    stored sum at j is T i + Σ_k s k. -/
theorem sum_block (T : FVec Ideal S512x128 .f32) (s : FVec Ideal S1024 .f32)
    (d' : Vec Ideal S16x128 .f32) (s' : Vec Ideal S1x1024 .f32) (j : S16x128.Idx) (i : S512x128.Idx)
    (hd : d' j = T i) (hs : s' = shapeCast S1x1024 s shapeCasts_S1024_S1x1024) :
    k0_pay3 (F := Ideal) s' d' j = T i + ∑ k : S1024.Idx, s k := by
  rw [Body.sum_at, hd, hs, Cert.Lib.sum_shapeCast]

/-! ## What the region finds: the two reshapes before it -/

/-- The row of scales the region finds is the vector of scales viewed [1, 1024]. -/
theorem scales_row (c : Dev nD) : (V m c main_v0 : S1x1024.Idx → Elt Ideal .f32)
    = shapeCast S1x1024 (m ((c : Thread nD τ).loc main_arg2)) shapeCasts_S1024_S1x1024 := by
  show StableHlo.after hostOps0 (fun b => m (c, b)) (Proc.devRef .tc main_v0) = _
  after_results
  rfl

/-- The table the region finds is the log-determinant viewed [512, 128]. -/
theorem logdet_table (c : Dev nD) : (V m c main_v1 : S512x128.Idx → Elt Ideal .f32)
    = shapeCast S512x128 (m ((c : Thread nD τ).loc main_arg1)) shapeCasts_S65536_S512x128 := by
  show StableHlo.after hostOps0 (fun b => m (c, b)) (Proc.devRef .tc main_v1) = _
  after_results
  rfl

/-! ## The block positions, decided over the 32 grid points -/

theorem hz : (![0, 0] : Fin 2 → Nat) = fun _ => 0 := funext fun a => by fin_cases a <;> rfl

/-- The matrix block read sits under the matrix block written, the table block read under the table block
    written, all in block-column 0, and the row of scales is always block (0, 0). -/
theorem idx_facts : ∀ t : Fin cfg0.N,
    win0_0.index t (0 : Fin 2) = win0_3.index t (0 : Fin 2) ∧ win0_0.index t (1 : Fin 2) = 0
    ∧ win0_3.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_4.index t (1 : Fin 2) = 0 :=
  (by decide +kernel : ∀ t : Fin grid0.N, _)

/-- Every one of the 32 block-rows of the matrix result is some point's. -/
theorem idx_onto3 : ∀ q0 : Fin 32, ∃ t : Fin cfg0.N, win0_3.index t = ![q0.val, 0] :=
  (by decide +kernel : ∀ q0 : Fin 32, ∃ t : Fin grid0.N, win0_3.index t = ![q0.val, 0])

/-- Every one of the 32 block-rows of the table result is some point's. -/
theorem idx_onto4 : ∀ q0 : Fin 32, ∃ t : Fin cfg0.N, win0_4.index t = ![q0.val, 0] :=
  (by decide +kernel : ∀ q0 : Fin 32, ∃ t : Fin grid0.N, win0_4.index t = ![q0.val, 0])

/-! ## The input blocks read off the arrays -/

/-- The row of scales a point is given is the whole row the region finds: the reshaped vector of scales. -/
theorem scales_block (c : Dev nD) (t : Fin cfg0.N) :
    (iblk m c 1 t : S1x1024.Idx → Elt Ideal .f32) = shapeCast S1x1024 (m ((c : Thread nD τ).loc main_arg2)) shapeCasts_S1024_S1x1024 := by
  obtain ⟨-, -, -, e10, e11, -, -, -⟩ := idx_facts t
  funext y
  show V m c main_v0 (((cfg0.win 1).blk t).view.emb y) = _
  rw [scales_row]
  have h : ((cfg0.win 1).blk t).view.emb y = y := by
    funext a; apply Fin.ext
    match a with
    | ⟨0, _⟩ => show win0_1.index t (0 : Fin 2) * 1 + 1 * (y 0).val = (y 0).val; omega
    | ⟨1, _⟩ => show win0_1.index t (1 : Fin 2) * 1024 + 1 * (y 1).val = (y 1).val; omega
  rw [h]

/-- The matrix block a point is given, at j, is the matrix argument at the entry of the written block over j. -/
theorem matrix_block (c : Dev nD) (t : Fin cfg0.N) (j : S2048x1024.Idx) :
    iblk m c 0 t j = m ((c : Thread nD τ).loc main_arg0) (((cfg0.win 3).blk t).view.emb j) := by
  obtain ⟨e00, e01, e31, -, -, -, -, -⟩ := idx_facts t
  show V m c main_arg0 (((cfg0.win 0).blk t).view.emb j) = _
  rw [V_main_arg0]
  have h : ((cfg0.win 0).blk t).view.emb j = ((cfg0.win 3).blk t).view.emb j := by
    funext a; apply Fin.ext
    match a with
    | ⟨0, _⟩ => show win0_0.index t (0 : Fin 2) * 2048 + 1 * (j 0).val = win0_3.index t (0 : Fin 2) * 2048 + 1 * (j 0).val; omega
    | ⟨1, _⟩ => show win0_0.index t (1 : Fin 2) * 1024 + 1 * (j 1).val = win0_3.index t (1 : Fin 2) * 1024 + 1 * (j 1).val; omega
  rw [h]

/-- The table block a point is given, at j, is the reshaped log-determinant at the entry of the written block
    over j. -/
theorem table_block (c : Dev nD) (t : Fin cfg0.N) (j : S16x128.Idx) :
    iblk m c 2 t j = shapeCast S512x128 (m ((c : Thread nD τ).loc main_arg1)) shapeCasts_S65536_S512x128
      (((cfg0.win 4).blk t).view.emb j) := by
  obtain ⟨-, -, -, -, -, e20, e21, e41⟩ := idx_facts t
  show V m c main_v1 (((cfg0.win 2).blk t).view.emb j) = _
  rw [logdet_table]
  have h : ((cfg0.win 2).blk t).view.emb j = ((cfg0.win 4).blk t).view.emb j := by
    funext a; apply Fin.ext
    match a with
    | ⟨0, _⟩ => show win0_2.index t (0 : Fin 2) * 16 + 1 * (j 0).val = win0_4.index t (0 : Fin 2) * 16 + 1 * (j 0).val; omega
    | ⟨1, _⟩ => show win0_2.index t (1 : Fin 2) * 128 + 1 * (j 1).val = win0_4.index t (1 : Fin 2) * 128 + 1 * (j 1).val; omega
  rw [h]

/-! ## The matrix result -/

/-- What point t writes back to the matrix result is block t of `scaled` of the arguments. -/
theorem flushed3_eq (c : Dev nD) (t : Fin cfg0.N) :
    (dats m 0 c).flushed 3 t = ((cfg0.win 3).blk t).view.read (Elt Ideal)
      (scaled (m ((c : Thread nD τ).loc main_arg0)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1x1024) hz, View.ld_unit_zero (S := S2048x1024) hz]
  obtain ⟨-, -, e31, -, -, -, -, -⟩ := idx_facts t
  funext j
  show k0_pay2 (F := Ideal) (iblk m c 1 t) (iblk m c 0 t) j
    = scaled (m ((c : Thread nD τ).loc main_arg0)) (m ((c : Thread nD τ).loc main_arg2)) (((cfg0.win 3).blk t).view.emb j)
  refine product_block _ _ _ _ j _ (matrix_block m c t j) (fun q => ?_) ?_
  · rw [scales_block m c t]
    exact shapeCast_a_1a_apply _ shapeCasts_S1024_S1x1024 (0 : Fin 1) q
  · show win0_3.index t (1 : Fin 2) * 1024 + 1 * (j 1).val = (j 1).val
    omega

/-- An entry of the matrix result is in point t's block iff each coordinate is in the block's range. -/
theorem mem_blk3 (t : Fin cfg0.N) (i : S65536x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v2_0).slice (win0_3.rect t)).set ↔ _
  rw [View.set_slice_whole, Rect.mem_set_unit]
  exact Iff.rfl

/-- Row r of the matrix result lies in the block of point r / 2048. -/
theorem cover3 (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  obtain ⟨t, ht⟩ := idx_onto3 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 1024 ≤ (i 1).val ∧ (i 1).val < win0_3.index t (1 : Fin 2) * 1024 + 1024; omega

/-- The matrix result after the grid is `scaled` of the arguments. -/
theorem final3 (c : Dev nD) : (dats m 0 c).arrAt 3 cfg0.N
    = scaled (m ((c : Thread nD τ).loc main_arg0)) (m ((c : Thread nD τ).loc main_arg2)) :=
  (dats m 0 c).arrAt_eq_of_cover 3 _ (fun t _ => flushed3_eq m c t) cover3

/-! ## The table result -/

/-- The table of the log-determinant with the total of the scales added to every entry. -/
def shiftedTable (d : FVec Ideal S65536 .f32) (s : FVec Ideal S1024 .f32) : FVec Ideal S512x128 .f32 := fun i =>
  shapeCast S512x128 d shapeCasts_S65536_S512x128 i + ∑ k : S1024.Idx, s k

/-- What point t writes back to the table result is block t of `shiftedTable`. -/
theorem flushed4_eq (c : Dev nD) (t : Fin cfg0.N) :
    (dats m 0 c).flushed 4 t = ((cfg0.win 4).blk t).view.read (Elt Ideal)
      (shiftedTable (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S1x1024) hz, View.ld_unit_zero (S := S16x128) hz]
  funext j
  show k0_pay3 (F := Ideal) (iblk m c 1 t) (iblk m c 2 t) j
    = shiftedTable (m ((c : Thread nD τ).loc main_arg1)) (m ((c : Thread nD τ).loc main_arg2)) (((cfg0.win 4).blk t).view.emb j)
  exact sum_block _ _ _ _ j _ (table_block m c t j) (scales_block m c t)

/-- An entry of the table result is in point t's block iff each coordinate is in the block's range. -/
theorem mem_blk4 (t : Fin cfg0.N) (i : S512x128.Idx) :
    i ∈ ((cfg0.win 4).blk t).view.set ↔ ∀ a : Fin 2, win0_4.index t a * S16x128.size a ≤ (i a).val
      ∧ (i a).val < win0_4.index t a * S16x128.size a + S16x128.size a := by
  show i ∈ ((View.whole main_v2_1).slice (win0_4.rect t)).set ↔ _
  rw [View.set_slice_whole, Rect.mem_set_unit]
  exact Iff.rfl

/-- Row r of the table result lies in the block of point r / 16. -/
theorem cover4 (i : S512x128.Idx) :
    ∃ t : Fin cfg0.N, (cfg0.win 4).flush t = true ∧ i ∈ ((cfg0.win 4).blk t).view.set := by
  have hi0 : (i 0).val < 512 := (i 0).isLt
  have hi1 : (i 1).val < 128 := (i 1).isLt
  obtain ⟨t, ht⟩ := idx_onto4 ⟨(i 0).val / 16, by omega⟩
  have q0 : win0_4.index t (0 : Fin 2) = (i 0).val / 16 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 128 ≤ (i 1).val ∧ (i 1).val < win0_4.index t (1 : Fin 2) * 128 + 128; omega

/-- The table result after the grid is `shiftedTable`. -/
theorem final4 (c : Dev nD) : (dats m 0 c).arrAt 4 cfg0.N
    = shiftedTable (m ((c : Thread nD τ).loc main_arg1)) (m ((c : Thread nD τ).loc main_arg2)) :=
  (dats m 0 c).arrAt_eq_of_cover 4 _ (fun t _ => flushed4_eq m c t) cover4

end Cert.KernelIdeal.Arrays

end
-- ==== Proof.KernelRun.lean ====
/-
  The kernel's run, read: its two results as functions of its arguments.
  The matrix result is the array the grid leaves, `scaled x s`. The second result is the table the grid leaves,
  viewed back as a vector of 65536 entries: the table is (d viewed [512, 128]) + Σ_k s k, a reshape commutes with
  adding one fixed value everywhere, and viewing d as a table and back is d itself — so the result is
  `shifted d s`.
-/
import proofs.«120602_j28329604284563_2_alg».proof.Proof.Arrays

noncomputable section

namespace Cert.KernelIdeal.Results

open Cert.KernelIdeal Cert.KernelIdeal.Gen Idealize.ShloMosaic Idealize.ShloMosaic.TcCoe Idealize.SL.Sem
open Idealize.ShloMosaic.ValueIdx Cert.ColumnScale Cert.KernelIdeal.Arrays
open Idealize.ShloMosaic.Pipeline (Dat)

variable (m : (ℓ : Loc nD τ sig) → Buf (Elt Ideal) ℓ) (ρ : Dev nD → PrngReg)

/-- The shifted table viewed back as a vector is the shifted vector. -/
theorem untable (d : FVec Ideal S65536 .f32) (s : FVec Ideal S1024 .f32) :
    shapeCast S65536 (shiftedTable d s) shapeCasts_S512x128_S65536 = shifted d s := by
  unfold shiftedTable shifted
  rw [Cert.Lib.shapeCast_add_const, shapeCast_shapeCast]

/-- The reshape after the grid leaves `shifted` of the arguments in the second result. -/
theorem tail_eq (c : Dev nD) :
    Pipeline.afterTail₀ cfgs (dats m) 0 (V0 m) [hostOps1] c main_v3
      = shifted (m ((c : Thread nD τ).loc main_arg1)) (m ((c : Thread nD τ).loc main_arg2)) := by
  unfold Pipeline.afterTail₀
  show StableHlo.after hostOps1 _ (Proc.devRef .tc main_v3) = _
  after_results
  rw [(Pipeline.withArrays_arr spec0 launch0.win.arr_inj c _ _ 4).trans (final4 m c)]
  exact untable _ _

/-- Every weakly fair execution of the kernel's program ends with its results at `scaled` and `shifted` of its
    arguments, and the arguments unchanged. -/
theorem run : θ_run defs (onTc (τ := τ) (main (F := Ideal))) ⟨m, fun _ => 0, ρ⟩ fun r => ∀ c : Dev nD,
      r.2.mem ((c.tc : Thread nD τ).loc main_v2_0)
        = scaled (m ((c.tc : Thread nD τ).loc main_arg0)) (m ((c.tc : Thread nD τ).loc main_arg2))
      ∧ r.2.mem ((c.tc : Thread nD τ).loc main_v3)
        = shifted (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c),
      ((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Results

end
-- ==== Proof.lean ====
/-
  Column scaling with a running log-determinant: the kernel against its reference, over the extended reals.

  For x : [65536, 1024], d : [65536], s : [1024] both programs return
      y (i, j) = x (i, j) · exp (s j)        and        d' i = d i + Σ_k s k
  (x times the diagonal matrix of the exp (s j), and d plus the logarithm of that matrix's determinant).

  The reference computes them with whole-array operations: exp s broadcast to the matrix shape and multiplied in;
  the sum of s (started from 0) broadcast and added.
  The kernel views s as one row and d as a [512, 128] table, and walks 32 blocks of 2048 matrix rows (16 table
  rows): each block of x is multiplied by the row of exponentials repeated down the block, each block of the table
  gets the total of the row of scales added, and the table is viewed back as a vector at the end.

  The two agree entry by entry because
    * the blocks written tile each array, the block of x read lies exactly under the block written, and a column
      of a block is a column of the array (the matrix result);
    * a reshape keeps every entry once, so the total of the row of scales — taken by the kernel over all indices
      of a [1, 1, 1024] view — is Σ_k s k, the reference's sum (0 + Σ_k s k); a reshape commutes with adding a fixed
      value, and viewing d as a table and back changes nothing (the second result).
  Only the commutative-monoid laws of + (re-indexing a finite sum along a bijection, 0 + a = a) are used, and these
  hold on all extended reals, infinities included: the finiteness of the inputs is never needed.

  Both exponentials are the same function of an extended real, the only float word in either program is 0, and no
  operation was rewritten in passing to the exact reading, so nothing is owed for that passage.
-/
import proofs.«120602_j28329604284563_2_alg».proof.Defs
import proofs.«120602_j28329604284563_2_alg».proof.Proof.Gen.Kernel
import proofs.«120602_j28329604284563_2_alg».proof.Proof.Gen.Kernel.Frame
import proofs.«120602_j28329604284563_2_alg».proof.Proof.Gen.KernelIdeal
import proofs.«120602_j28329604284563_2_alg».proof.Proof.Gen.KernelIdeal.Frame
import proofs.«120602_j28329604284563_2_alg».proof.Proof.Gen.ReferenceIdeal
import proofs.«120602_j28329604284563_2_alg».proof.Proof.Gen.ReferenceIdeal.Run
import proofs.«120602_j28329604284563_2_alg».proof.Proof.Gen.ReferenceIdeal.Read
import proofs.«120602_j28329604284563_2_alg».proof.Proof.Gen.Pre_finite_inputs
import proofs.«120602_j28329604284563_2_alg».proof.Proof.RefValue
import proofs.«120602_j28329604284563_2_alg».proof.Proof.KernelRun

noncomputable section

namespace Cert.Proof

open Idealize.ShloMosaic Idealize.ShloMosaic.TcCoe Idealize.SL.Sem Cert.ColumnScale

/-- The kernel's program, word by word, terminates without a fault and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference terminates without a fault and leaves its arguments as they were: its run, the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- No operation was rewritten in passing to the extended reals: nothing to state. -/
theorem preserves : Cert.preserves_Kernel_KernelIdeal := trivial

/-- From memories agreeing on x, d and s both programs end with `scaled x s` and `shifted d s`. -/
theorem algebraic : Cert.algebraic_KernelIdeal_ReferenceIdeal := by
  intro m ρ m' ρ' _ hagree
  refine ⟨fun c => scaled (m ((c.tc : Thread Cert.KernelIdeal.nD Cert.KernelIdeal.τ).loc Cert.KernelIdeal.main_arg0))
        (m ((c.tc : Thread Cert.KernelIdeal.nD Cert.KernelIdeal.τ).loc Cert.KernelIdeal.main_arg2)),
      fun c => shifted (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.Results.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v4_eq, Cert.ReferenceIdeal.Results.product_eq, (hagree c).1, (hagree c).2.2]
  · rw [Cert.ReferenceIdeal.Read.val_main_v6_eq, Cert.ReferenceIdeal.Results.sum_eq, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
